-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  reducesTo_S1024x2048_S2048_d0 : S1024x2048.ReducesTo [0] S2048
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .ogt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v13 main_v18
  main_v19

def fn {F : FTy → Type} [FloatOps F] (main_arg0 : FVec F S8192x1024 .f32) (main_arg1 : FVec F S1024x2048 .f32) (main_arg2 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := mulf main_arg1 main_arg1
  let main_cst_4 : FVec F S_ .f32 := constant S_ .f32 0x00000000#32
  let main_v15 : FVec F S2048 .f32 := (fun x v => Host.reduceAdd x v reducesTo_S1024x2048_S2048_d0 h_S_) main_v14 main_cst_4
  let main_cst_5 : FVec F S_ .f32 := constant S_ .f32 0x00000000#32
  fn_part1 (F := F) main_v13 main_v15 main_cst_5
-- ==== Kernel.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩
abbrev S1024x3072 : Shape := ⟨2, ![1024, 3072]⟩
abbrev S2048 : Shape := ⟨1, ![2048]⟩
abbrev S1x2048 : Shape := ⟨2, ![1, 2048]⟩
abbrev S1024x1024 : Shape := ⟨2, ![1024, 1024]⟩
abbrev S512x3072 : Shape := ⟨2, ![512, 3072]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S8192x1024, .f32⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  broadcasts_S1x2048_S1024x2048 : S1x2048.Broadcasts S1024x2048
  bitsLt_bf16_f32 : FTy.bits .bf16 < FTy.bits .f32
  inb_S1024x3072_S1024x2048_0_0 : ∀ a, (![0, 0] : Fin 2 → Nat) a + S1024x2048.size a ≤ S1024x3072.size a
  shapeCasts_S1024x2048_S1024x2048 : S1024x2048.ShapeCasts S1024x2048
  packedbf16_S1024x3072_S1024x2048_0_0 : (Rect.unit (s := S1024x3072) ![0, 0] S1024x2048.size inb_S1024x3072_S1024x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S1024x3072_S1024x1024_0_2048 : ∀ a, (![0, 2048] : Fin 2 → Nat) a + S1024x1024.size a ≤ S1024x3072.size a
  h_S1024x1024 : 0 < S1024x1024.numel
  shapeCasts_S1024x1024_S1024x1024 : S1024x1024.ShapeCasts S1024x1024
  packedbf16_S1024x3072_S1024x1024_0_2048 : (Rect.unit (s := S1024x3072) ![0, 2048] S1024x1024.size inb_S1024x3072_S1024x1024_0_2048).PackedRows (EltTy.packing .bf16)
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  slices_S512x3072_o0_0_S512x2048 : S512x3072.Slices ![0, 0] S512x2048
  inb_S512x2048_S512x2048_0_0 : ∀ a, (![0, 0] : Fin 2 → Nat) a + S512x2048.size a ≤ S512x2048.size a
  h_S512x2048 : 0 < S512x2048.numel
  slices_S512x3072_o0_2048_S512x1024 : S512x3072.Slices ![0, 2048] S512x1024
  dot_S1024x2048_S2048x1024_S1024x1024_1_0_0_1_n_n_wf : DotDims.WF S1024x2048 S2048x1024 S1024x1024 [1] [0] [0] [1] [] []
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1024x2048, .f32⟩
  | .hbm, ⟨9, _⟩ => ⟨S1024x2048, .f32⟩
  | .hbm, ⟨10, _⟩ => ⟨S8192x2048, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  reducesTo_S1024x2048_S2048_d0 : S1024x2048.ReducesTo [0] S2048
  h_S_ : 0 < S_.numel
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  The mathematics of the two programs, over the extended reals, with no program in sight.

  Inputs: x [8192, 1024], A [1024, 2048], B [2048, 1024]. Column k of A has the sum of squares
  colSq A k = Σ_f A(f,k)². One side scales A(f,k) by the reciprocal square root of that sum, the other divides A(f,k)
  by the square root of (0 + that sum). With U the scaled matrix, the second result is x·U on both sides; the first
  result is x·(U·B) on one side and (x·U)·B on the other.

  The two scalings agree wherever the column's sum of squares is a positive real: both are A(f,k)·(√s)⁻¹. (At s = 0
  they differ on the extended reals — 0·(+∞) is 0 while 0/0 is not — which is why the columns are asked to be nonzero.)
  The two products agree because every entry is then a real number, where matrix multiplication is associative:
  Σ_f x_f·(Σ_k u_fk·b_k) = Σ_k (Σ_f x_f·u_fk)·b_k by distributing and exchanging the two finite sums. Distributivity
  fails at infinities, so finiteness of all three inputs is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![8192, 1024]⟩
abbrev SA : Shape := ⟨2, ![1024, 2048]⟩
abbrev SB : Shape := ⟨2, ![2048, 1024]⟩
abbrev SI : Shape := ⟨2, ![8192, 2048]⟩

/-- The sum of squares of column k of A. -/
def colSq (A : SA.Idx → EReal) (k : Fin 2048) : EReal := ∑ f : Fin 1024, A (ix2 f k) * A (ix2 f k)

/-- Entry (f, k) of A scaled by the reciprocal square root of its column's sum of squares. -/
def unitK (A : SA.Idx → EReal) (f : Fin 1024) (k : Fin 2048) : EReal := A (ix2 f k) * Ideal.rsqrt (colSq A k)

/-- Entry (f, k) of A divided by the square root of its column's sum of squares, the sum started from the zero word. -/
def unitR (A : SA.Idx → EReal) (f : Fin 1024) (k : Fin 2048) : EReal :=
  Ideal.div (A (ix2 f k)) (Ideal.sqrt (Ideal.ofBits .f32 0x00000000#32 + colSq A k))

/-- x·U with U scaled by the reciprocal square root. -/
def innerK (x : SX.Idx → EReal) (A : SA.Idx → EReal) (b : Fin 8192) (k : Fin 2048) : EReal :=
  ∑ f : Fin 1024, x (ix2 b f) * unitK A f k

/-- U·B. -/
def prodK (A : SA.Idx → EReal) (B : SB.Idx → EReal) (f : Fin 1024) (g : Fin 1024) : EReal :=
  ∑ k : Fin 2048, unitK A f k * B (ix2 k g)

/-- x·(U·B). -/
def outK (x : SX.Idx → EReal) (A : SA.Idx → EReal) (B : SB.Idx → EReal) (b : Fin 8192) (g : Fin 1024) : EReal :=
  ∑ f : Fin 1024, x (ix2 b f) * prodK A B f g

/-- x·U with U scaled by division. -/
def innerR (x : SX.Idx → EReal) (A : SA.Idx → EReal) (b : Fin 8192) (k : Fin 2048) : EReal :=
  ∑ f : Fin 1024, x (ix2 b f) * unitR A f k

/-- (x·U)·B. -/
def outR (x : SX.Idx → EReal) (A : SA.Idx → EReal) (B : SB.Idx → EReal) (b : Fin 8192) (g : Fin 1024) : EReal :=
  ∑ k : Fin 2048, innerR x A b k * B (ix2 k g)

/-- Every entry is a real number. -/
def Finite {S : Shape} (v : S.Idx → EReal) : Prop := ∀ i, ∃ r : ℝ, v i = (r : EReal)

/-- Every column of A has a positive sum of squares (started from the zero word, as the sum is computed). -/
def ColsNonzero (A : SA.Idx → EReal) : Prop :=
  ∀ k : Fin 2048, Ideal.ofBits .f32 0x00000000#32 < Ideal.ofBits .f32 0x00000000#32 + colSq A k

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a positive real s, a·rsqrt(s) and a/√(0 + s) are both a·(√s)⁻¹, whatever a is. -/
theorem scale_eq (a : EReal) (s : ℝ) (hs : 0 < s) :
    a * Ideal.rsqrt (s : EReal) = Ideal.div a (Ideal.sqrt (Ideal.ofBits .f32 0x00000000#32 + (s : EReal))) := by
  have hq : Real.sqrt s ≠ 0 := (Real.sqrt_pos.mpr hs).ne'
  rw [Ideal.ofBits_zero_f32, zero_add, Ideal.rsqrt_coe, Ideal.sqrt_coe, if_neg (not_lt.mpr hs.le), if_neg hs.ne',
    if_neg (not_lt.mpr hs.le), Ideal.div_coe hq, one_div]

variable (x : SX.Idx → EReal) (A : SA.Idx → EReal) (B : SB.Idx → EReal)

/-- Under the two hypotheses on A the scaled entry is one real number on both sides. -/
theorem unit_real (hA : Finite A) (hpos : ColsNonzero A) :
    ∃ u : Fin 1024 → Fin 2048 → ℝ, ∀ f k, unitK A f k = (u f k : EReal) ∧ unitR A f k = (u f k : EReal) := by
  choose ar har using hA
  refine ⟨fun f k => ar (ix2 f k) * (Real.sqrt (∑ f' : Fin 1024, ar (ix2 f' k) * ar (ix2 f' k)))⁻¹, fun f k => ?_⟩
  have hs : colSq A k = ((∑ f' : Fin 1024, ar (ix2 f' k) * ar (ix2 f' k) : ℝ) : EReal) := by
    unfold colSq
    rw [coe_sum]
    exact Finset.sum_congr rfl fun f' _ => by rw [har, EReal.coe_mul]
  have hp := hpos k
  rw [hs, Ideal.ofBits_zero_f32, zero_add] at hp
  have hp' : (0 : ℝ) < ∑ f' : Fin 1024, ar (ix2 f' k) * ar (ix2 f' k) := by exact_mod_cast hp
  have hq : Real.sqrt (∑ f' : Fin 1024, ar (ix2 f' k) * ar (ix2 f' k)) ≠ 0 := (Real.sqrt_pos.mpr hp').ne'
  have e1 : unitK A f k = ((ar (ix2 f k) * (Real.sqrt (∑ f' : Fin 1024, ar (ix2 f' k) * ar (ix2 f' k)))⁻¹ : ℝ) : EReal) := by
    unfold unitK
    rw [hs, har, Ideal.rsqrt_coe, if_neg (not_lt.mpr hp'.le), if_neg hp'.ne', EReal.coe_mul]
  refine ⟨e1, ?_⟩
  rw [← e1]
  unfold unitK unitR
  rw [hs]
  exact (scale_eq _ _ hp').symm

/-- The second result: x·U is the same with either scaling. -/
theorem inner_eq (hA : Finite A) (hpos : ColsNonzero A) (b : Fin 8192) (k : Fin 2048) : innerK x A b k = innerR x A b k := by
  obtain ⟨u, hu⟩ := unit_real A hA hpos
  unfold innerK innerR
  exact Finset.sum_congr rfl fun f _ => by rw [(hu f k).1, (hu f k).2]

/-- The first result: x·(U·B) = (x·U)·B, all entries being real numbers. -/
theorem out_eq (hx : Finite x) (hA : Finite A) (hB : Finite B) (hpos : ColsNonzero A) (b : Fin 8192) (g : Fin 1024) :
    outK x A B b g = outR x A B b g := by
  obtain ⟨u, hu⟩ := unit_real A hA hpos
  choose xr hxr using hx
  choose br hbr using hB
  have eK : outK x A B b g = ((∑ f : Fin 1024, xr (ix2 b f) * ∑ k : Fin 2048, u f k * br (ix2 k g) : ℝ) : EReal) := by
    unfold outK prodK
    rw [coe_sum]
    refine Finset.sum_congr rfl fun f _ => ?_
    rw [EReal.coe_mul, coe_sum, hxr]
    refine congrArg _ (Finset.sum_congr rfl fun k _ => ?_)
    rw [(hu f k).1, hbr, EReal.coe_mul]
  have eR : outR x A B b g = ((∑ k : Fin 2048, (∑ f : Fin 1024, xr (ix2 b f) * u f k) * br (ix2 k g) : ℝ) : EReal) := by
    unfold outR innerR
    rw [coe_sum]
    refine Finset.sum_congr rfl fun k _ => ?_
    rw [EReal.coe_mul, coe_sum, hbr]
    refine congrArg (· * _) (Finset.sum_congr rfl fun f _ => ?_)
    rw [(hu f k).2, hxr, EReal.coe_mul]
  rw [eK, eR]
  refine congrArg _ ?_
  simp only [Finset.mul_sum, Finset.sum_mul]
  rw [Finset.sum_comm]
  exact Finset.sum_congr rfl fun k _ => Finset.sum_congr rfl fun f _ => by ring

end Cert.Spec

end
-- ==== Proof.Domain.lean ====
/-
  What the precondition says, read back over the extended reals.

  The precondition is one bit: the conjunction of four reductions by `and`. Three say that the absolute value of
  every entry of x, A and B is below +∞ — so every entry is a real number (an extended real whose absolute value is
  not +∞ is neither infinity). The fourth says that every column of A has a positive sum of squares, the sum being
  the host's: the zero word plus the sum over the 1024 rows.
-/
import proofs.«116443_g85555748536941_cont_sun_m_818_32_alg».proof.Pre_finite_inputs
import proofs.«116443_g85555748536941_cont_sun_m_818_32_alg».proof.Proof.Gen.Pre_finite_inputs
import proofs.«116443_g85555748536941_cont_sun_m_818_32_alg».proof.Proof.Spec
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Domain

open Cert.Pre_finite_inputs

instance : Subsingleton S_.Idx := ⟨fun a b => funext fun d => d.elim0⟩

theorem real_of_abs_lt (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- A comparison "greater than" that came out true. -/
theorem lt_of_cmp_ogt (a b : EReal) (h : Ideal.cmp .ogt a b = 1#1) : b < a := by
  unfold Ideal.cmp at h
  by_contra hn
  simp [hn] at h

/-- The host's sum over the rows of the squares of A, at column k: the zero word plus the sum of the squares. -/
theorem colsum_host (A : FVec Ideal S1024x2048 .f32) (k : Fin 2048) :
    Host.reduceAdd (F := Ideal) (mulf A A) (constant (F := Ideal) S_ .f32 0x00000000#32) Facts.reducesTo_S1024x2048_S2048_d0 Facts.h_S_ (ix1 k)
      = Ideal.ofBits .f32 0x00000000#32 + Cert.Spec.colSq A k := by
  simp only [Host.reduceAdd, Ideal.hostReduceAdd_def]
  rw [Ideal.hostReduceAdd_single Facts.reducesTo_S1024x2048_S2048_d0 (by decide)]
  unfold Cert.Spec.colSq
  refine congrArg₂ (· + ·) rfl (Finset.sum_congr rfl fun f _ => ?_)
  show A _ * A _ = _
  have e : (Shape.Reduces.lift (by decide : S1024x2048.Reduces [0] S2048) (ix1 k) f : S1024x2048.Idx) = ix2 f k :=
    funext fun a => Fin.ext (by match a with | ⟨0, _⟩ => rfl | ⟨1, _⟩ => rfl)
  rw [e]
  rfl

theorem decode (x : FVec Ideal S8192x1024 .f32) (A : FVec Ideal S1024x2048 .f32) (B : FVec Ideal S2048x1024 .f32)
    (h : Cert.Pre_finite_inputs.fn (F := Ideal) x A B = fun _ => 1#1) :
    Cert.Spec.Finite x ∧ Cert.Spec.Finite A ∧ Cert.Spec.Finite B ∧ Cert.Spec.ColsNonzero A := by
  have h0 := congrFun h ix0
  unfold Cert.Pre_finite_inputs.fn Cert.Pre_finite_inputs.fn_part1 at h0
  dsimp only at h0
  change IntOp.andi _ _ = 1#1 at h0
  obtain ⟨h123, h4⟩ := IntOp.andi_eq_one.1 h0
  change IntOp.andi _ _ = 1#1 at h123
  obtain ⟨h12, h3⟩ := IntOp.andi_eq_one.1 h123
  change IntOp.andi _ _ = 1#1 at h12
  obtain ⟨h1, h2⟩ := IntOp.andi_eq_one.1 h12
  refine ⟨fun i => real_of_abs_lt (x i) (Host.reduce_andi_all _ _ _ _ ix0 h1 i),
    fun i => real_of_abs_lt (A i) (Host.reduce_andi_all _ _ _ _ ix0 h2 i),
    fun i => real_of_abs_lt (B i) (Host.reduce_andi_all _ _ _ _ ix0 h3 i), fun k => ?_⟩
  have hk := lt_of_cmp_ogt _ _ (Host.reduce_andi_all _ _ _ _ ix0 h4 (ix1 k))
  rw [colsum_host] at hk
  exact hk

end Cert.Domain
end
-- ==== Proof.Found.lean ====
/-
  What one run of the kernel body leaves behind, as values, at any float instance.

  The body carries a [1024, 3072] table in scratch. At the grid's first point it fills the table from the whole
  arrays A [1024, 2048] and Bm [2048, 1024]: columns 0..2047 get A with every column scaled by the reciprocal
  square root of its sum of squares, columns 2048..3071 get the product of that scaled matrix with Bm. At every
  point the body multiplies the point's 512 rows of x by the whole table and stores columns 0..2047 of the
  product as the block of the second result and columns 2048..3071 as the block of the first result.

  Here: the table as one term of A and Bm (`table`), and the three facts per control case — the table after the
  point, and the two blocks stored — each block a payload of the point's rows of x and of the table. At the first
  point the table read back is the one just stored; at a later point it is whatever the point before left.
-/
import proofs.«116443_g85555748536941_cont_sun_m_818_32_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

/-- Both offsets of a whole-buffer access are zero. -/
theorem hz2 : (![0, 0] : Fin 2 → Nat) = fun _ => 0 := funext fun a => by fin_cases a <;> rfl

/-- The table the first point stores: the product block at column offset 2048 (stored last), the scaled copy of A
    at column offset 0. -/
def table (A : Vec F S1024x2048 .f32) (B : Vec F S2048x1024 .f32) : Vec F S1024x3072 .bf16 :=
  View.canon [⟨Rect.unit ![0, 2048] S1024x1024.size inb_S1024x3072_S1024x1024_0_2048, k0_pay3 A B⟩,
    ⟨Rect.unit ![0, 0] S1024x2048.size inb_S1024x3072_S1024x2048_0_0, k0_pay2 A⟩]

/-- A load of the whole table after a list of stores reads what the stores left. -/
theorem readCov_whole (v : View sig .tc .vmem S1024x3072 .bf16) (L : List (View.Piece (Elt F) S1024x3072 .bf16))
    (inb : ∀ a, (![0, 0] : Fin 2 → Nat) a + S1024x3072.size a ≤ S1024x3072.size a) :
    v.readCov L (Rect.unit ![0, 0] S1024x3072.size inb).toLoadRect = View.canon L := by
  rw [View.readCov_eq_canon']
  exact View.ld_unit_zero (S := S1024x3072) hz2 inb (View.canon L)

/-- FIRST POINT: the scratch ends holding the table of the two whole arrays. -/
theorem table_first (c : Dev nD) (i : grid0.Coords) (a1 : Memref sig .tc .vmem S512x1024 .f32) (h1 : a1.IsWhole) (a2 : Memref sig .tc .vmem S1024x2048 .f32) (h2 : a2.IsWhole) (a3 : Memref sig .tc .vmem S2048x1024 .f32) (h3 : a3.IsWhole) (a4 : Memref sig .tc .vmem S512x1024 .f32) (h4 : a4.IsWhole) (a5 : Memref sig .tc .vmem S512x2048 .f32) (h5 : a5.IsWhole) (a6 : Memref sig .tc .vmem S1024x3072 .bf16) (h6 : a6.IsWhole) (hc : cond0_0 i) (x0 : Vec F S512x1024 .f32) (x1 : Vec F S1024x2048 .f32) (x2 : Vec F S2048x1024 .f32) :
    sout0_A_0 c i a1 h1 a2 h2 a3 h3 a4 h4 a5 h5 a6 h6 hc x0 x1 x2 = table x1 x2 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  simp only [View.readAt_eq_ld, h2.read_unread, h3.read_unread, View.ld_unit_zero (S := S1024x2048) hz2,
    View.ld_unit_zero (S := S2048x1024) hz2]
  rfl

/-- FIRST POINT: the block of the second result is columns 0..2047 of the rows of x times the table just stored. -/
theorem inner_first (c : Dev nD) (i : grid0.Coords) (a1 : Memref sig .tc .vmem S512x1024 .f32) (h1 : a1.IsWhole) (a2 : Memref sig .tc .vmem S1024x2048 .f32) (h2 : a2.IsWhole) (a3 : Memref sig .tc .vmem S2048x1024 .f32) (h3 : a3.IsWhole) (a4 : Memref sig .tc .vmem S512x1024 .f32) (h4 : a4.IsWhole) (a5 : Memref sig .tc .vmem S512x2048 .f32) (h5 : a5.IsWhole) (a6 : Memref sig .tc .vmem S1024x3072 .bf16) (h6 : a6.IsWhole) (hc : cond0_0 i) (x0 : Vec F S512x1024 .f32) (x1 : Vec F S1024x2048 .f32) (x2 : Vec F S2048x1024 .f32) :
    out0_A_4 c i a1 h1 a2 h2 a3 h3 a4 h4 a5 h5 a6 h6 hc x0 x1 x2 = k0_pay5 x0 (table x1 x2) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_unit_zero (S := S512x2048) hz2, readCov_whole]
  simp only [View.readAt_eq_ld, h1.read_unread, h2.read_unread, h3.read_unread, View.ld_unit_zero (S := S512x1024) hz2,
    View.ld_unit_zero (S := S1024x2048) hz2, View.ld_unit_zero (S := S2048x1024) hz2]
  rfl

/-- FIRST POINT: the block of the first result is columns 2048..3071 of the same product. -/
theorem out_first (c : Dev nD) (i : grid0.Coords) (a1 : Memref sig .tc .vmem S512x1024 .f32) (h1 : a1.IsWhole) (a2 : Memref sig .tc .vmem S1024x2048 .f32) (h2 : a2.IsWhole) (a3 : Memref sig .tc .vmem S2048x1024 .f32) (h3 : a3.IsWhole) (a4 : Memref sig .tc .vmem S512x1024 .f32) (h4 : a4.IsWhole) (a5 : Memref sig .tc .vmem S512x2048 .f32) (h5 : a5.IsWhole) (a6 : Memref sig .tc .vmem S1024x3072 .bf16) (h6 : a6.IsWhole) (hc : cond0_0 i) (x0 : Vec F S512x1024 .f32) (x1 : Vec F S1024x2048 .f32) (x2 : Vec F S2048x1024 .f32) :
    out0_A_3 c i a1 h1 a2 h2 a3 h3 a4 h4 a5 h5 a6 h6 hc x0 x1 x2 = k0_pay6 x0 (table x1 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero (S := S512x1024) hz2, readCov_whole]
  simp only [View.readAt_eq_ld, h1.read_unread, h2.read_unread, h3.read_unread, View.ld_unit_zero (S := S512x1024) hz2,
    View.ld_unit_zero (S := S1024x2048) hz2, View.ld_unit_zero (S := S2048x1024) hz2]
  rfl

/-- LATER POINT: the block of the second result, over the table the point before left. -/
theorem inner_later (c : Dev nD) (i : grid0.Coords) (a1 : Memref sig .tc .vmem S512x1024 .f32) (h1 : a1.IsWhole) (a2 : Memref sig .tc .vmem S1024x2048 .f32) (h2 : a2.IsWhole) (a3 : Memref sig .tc .vmem S2048x1024 .f32) (h3 : a3.IsWhole) (a4 : Memref sig .tc .vmem S512x1024 .f32) (h4 : a4.IsWhole) (a5 : Memref sig .tc .vmem S512x2048 .f32) (h5 : a5.IsWhole) (a6 : Memref sig .tc .vmem S1024x3072 .bf16) (h6 : a6.IsWhole) (hc : ¬cond0_0 i) (x0 : Vec F S512x1024 .f32) (x1 : Vec F S1024x2048 .f32) (x2 : Vec F S2048x1024 .f32) (xs : Vec F S1024x3072 .bf16) :
    out0_B_4 c i a1 h1 a2 h2 a3 h3 a4 h4 a5 h5 a6 h6 hc x0 x1 x2 xs = k0_pay5 x0 xs := by
  unfold out0_B_4
  rw [View.read_writes_eq_canon _ _ _ (cover0_B_4 c i a1 h1 a2 h2 a3 h3 a4 h4 a5 h5 a6 h6 hc x0 x1 x2 xs)]
  unfold kernelRun0_B
  dsimp only
  sl_unfold_words
  rw [View.canon_unit_zero (S := S512x2048) hz2]
  simp only [View.readAt_eq_ld, h1.read_unread, h6.read_unread, View.ld_unit_zero (S := S512x1024) hz2,
    View.ld_unit_zero (S := S1024x3072) hz2]

/-- LATER POINT: the block of the first result, over the table the point before left. -/
theorem out_later (c : Dev nD) (i : grid0.Coords) (a1 : Memref sig .tc .vmem S512x1024 .f32) (h1 : a1.IsWhole) (a2 : Memref sig .tc .vmem S1024x2048 .f32) (h2 : a2.IsWhole) (a3 : Memref sig .tc .vmem S2048x1024 .f32) (h3 : a3.IsWhole) (a4 : Memref sig .tc .vmem S512x1024 .f32) (h4 : a4.IsWhole) (a5 : Memref sig .tc .vmem S512x2048 .f32) (h5 : a5.IsWhole) (a6 : Memref sig .tc .vmem S1024x3072 .bf16) (h6 : a6.IsWhole) (hc : ¬cond0_0 i) (x0 : Vec F S512x1024 .f32) (x1 : Vec F S1024x2048 .f32) (x2 : Vec F S2048x1024 .f32) (xs : Vec F S1024x3072 .bf16) :
    out0_B_3 c i a1 h1 a2 h2 a3 h3 a4 h4 a5 h5 a6 h6 hc x0 x1 x2 xs = k0_pay6 x0 xs := by
  unfold out0_B_3
  rw [View.read_writes_eq_canon _ _ _ (cover0_B_3 c i a1 h1 a2 h2 a3 h3 a4 h4 a5 h5 a6 h6 hc x0 x1 x2 xs)]
  unfold kernelRun0_B
  dsimp only
  sl_unfold_words
  rw [View.canon_unit_zero (S := S512x1024) hz2]
  simp only [View.readAt_eq_ld, h1.read_unread, h6.read_unread, View.ld_unit_zero (S := S512x1024) hz2,
    View.ld_unit_zero (S := S1024x3072) hz2]

end Cert.KernelIdeal.Found

end
-- ==== Proof.Sweep.lean ====
/-
  The sweep over the sixteen grid points, at any float instance.

  The windows of A and Bm do not move: their block at every point is the whole array. The table is stored at the
  first point only and every later point leaves it alone, so after every point the scratch holds ONE table — that
  of the whole A and Bm (induction on the point). Hence at every point, first or later, the two blocks the body
  stores are the payloads of that point's rows of x and of this one table.
-/
import proofs.«116443_g85555748536941_cont_sun_m_818_32_alg».proof.Proof.Found

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Found

variable {F : FTy → Type} [FloatOps F]
variable (m : (ℓ : Loc nD τ sig) → Buf (Elt F) ℓ)

/-- The block indices of the windows of A and Bm are zero on both axes at every point (decided over the grid). -/
theorem idx_fixed : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of A at any point is the whole of A. -/
theorem blockA (c : Dev nD) (t : Fin cfg0.N) : iblk m c 1 t = V m c main_arg1 := by
  obtain ⟨e0, e1, -, -⟩ := idx_fixed t
  funext y
  show V m c main_arg1 (((cfg0.win 1).blk t).view.emb y) = V m c main_arg1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The block of Bm at any point is the whole of Bm. -/
theorem blockB (c : Dev nD) (t : Fin cfg0.N) : iblk m c 2 t = V m c main_arg2 := by
  obtain ⟨-, -, e0, e1⟩ := idx_fixed t
  funext y
  show V m c main_arg2 (((cfg0.win 2).blk t).view.emb y) = V m c main_arg2 y
  refine congrArg _ (funext fun a => Fin.ext ?_)
  match a with
  | ⟨0, _⟩ => show win0_2.index t (0 : Fin 2) * 2048 + 1 * (y 0).val = (y 0).val; omega
  | ⟨1, _⟩ => show win0_2.index t (1 : Fin 2) * 1024 + 1 * (y 1).val = (y 1).val; omega

/-- The one table of the run: that of the whole arrays A and Bm as launched. -/
abbrev theTable (c : Dev nD) : Vec F S1024x3072 .bf16 := table (V m c main_arg1) (V m c main_arg2)

/-- After every point the scratch holds the one table. -/
theorem table_at (c : Dev nD) (n : ℕ) (h : n < cfg0.N) : (outsAt0 m c n h).2.2 = theTable m c := by
  induction n with
  | zero =>
    have h0 : (⟨0, h⟩ : Fin cfg0.N).val % 16 = 0 := rfl
    have e := congrArg (fun p => p.2.2) (outsAt0_A m c ⟨0, h⟩ h0)
    dsimp only at e
    rw [e, table_first, blockA, blockB]
  | succ n ih =>
    have hN : cfg0.N = 16 := N_0
    have hB : ¬(⟨n + 1, h⟩ : Fin cfg0.N).val % 16 = 0 := by dsimp only; omega
    have e := congrArg (fun p => p.2.2) (outsAt0_B m c ⟨n + 1, h⟩ hB)
    dsimp only at e
    rw [e]
    unfold sout0_B_0
    simp only [Nat.add_sub_cancel]
    exact ih _

/-- At every point the block stored for the first result is the payload of the point's rows of x and the table. -/
theorem out_at (c : Dev nD) (t : Fin cfg0.N) : (outsAt0 m c t.val t.isLt).1 = k0_pay6 (iblk m c 0 t) (theTable m c) := by
  by_cases h0 : t.val % 16 = 0
  · rw [outsAt0_A m c t h0]
    dsimp only
    rw [out_first, blockA, blockB]
  · rw [outsAt0_B m c t h0]
    dsimp only
    rw [out_later, table_at]

/-- At every point the block stored for the second result is the payload of the point's rows of x and the table. -/
theorem inner_at (c : Dev nD) (t : Fin cfg0.N) : (outsAt0 m c t.val t.isLt).2.1 = k0_pay5 (iblk m c 0 t) (theTable m c) := by
  by_cases h0 : t.val % 16 = 0
  · rw [outsAt0_A m c t h0]
    dsimp only
    rw [inner_first, blockA, blockB]
  · rw [outsAt0_B m c t h0]
    dsimp only
    rw [inner_later, table_at]

end Cert.KernelIdeal.Sweep

end
-- ==== Proof.LibTwoStores.lean ====
/-
  Two stores into one buffer, read back under the earlier store.

  The contents a list of stores leaves are read last store first: an index takes the payload of the latest store
  whose rectangle holds it. So after two stores, an index under the earlier store's rectangle that lies strictly
  below the later store's first coordinate on some axis is outside the later rectangle, and reads the earlier
  store's payload at its own coordinates. Stated over any shape, rectangles and values; it is applied to a table
  filled by two column ranges.
-/
import Idealize.ShloMosaic.Lib.Pipeline.Value

noncomputable section

open Idealize.ShloMosaic

namespace Cert.Lib.TwoStores

/-- After two stores, an index under the earlier store's rectangle that falls short of the later store's rectangle
    on some axis reads the earlier store's payload. -/
theorem canon_pair_earlier {Val : EltTy → Type} [∀ e, Nonempty (Val e)] {S : Shape} {e : EltTy}
    (r1 r2 : Rect S) (w1 : r1.shape.Idx → Val e) (w2 : r2.shape.Idx → Val e) (x : r2.shape.Idx) (a : Fin S.rank)
    (hlt : ((r2.emb x) a : Nat) < r1.off a) :
    View.canon [(⟨r1, w1⟩ : View.Piece Val S e), ⟨r2, w2⟩] (r2.emb x) = w2 x := by
  have hout : r2.emb x ∉ (⟨r1, w1⟩ : View.Piece Val S e).1.set := by
    intro hm
    simp only [LoadRect.mem_set] at hm
    obtain ⟨j, -, hj⟩ := hm a
    omega
  rw [View.canon_cons_of_not_mem _ _ hout]
  exact View.canon_cons_emb r2 w2 [] x

end Cert.Lib.TwoStores

end
-- ==== Proof.TableAt.lean ====
/-
  The table read at one entry, at any float instance.

  The table was stored in two rectangles: the scaled copy of A in columns 0..2047 and the product block in columns
  2048..3071. An entry in a column below 2048 lies outside the product block's rectangle, so it reads the scaled
  copy at the same coordinates; an entry in column 2048 + g reads the product block at column g.
-/
import proofs.«116443_g85555748536941_cont_sun_m_818_32_alg».proof.Proof.Found
import proofs.«116443_g85555748536941_cont_sun_m_818_32_alg».proof.Proof.LibTwoStores
import Idealize.ShloMosaic.Lib.ValueIdx

set_option maxRecDepth 16384

noncomputable section

open Idealize.ShloMosaic Idealize.ShloMosaic.TcCoe Idealize.SL.Sem Idealize.ShloMosaic.ValueIdx

namespace Cert.KernelIdeal.TableAt

open Cert.KernelIdeal Cert.KernelIdeal.Gen Cert.KernelIdeal.Found

variable {F : FTy → Type} [FloatOps F]

/-- Column 2048 + g of the table is column g of the product block. -/
theorem table_right (A : Vec F S1024x2048 .f32) (B : Vec F S2048x1024 .f32) (f : Fin 1024) (g : Fin 1024) :
    table A B (ix2 f (⟨2048 + g.val, by omega⟩ : Fin 3072)) = k0_pay3 A B (ix2 f g) := by
  unfold table
  have e : (ix2 f (⟨2048 + g.val, by omega⟩ : Fin 3072) : S1024x3072.Idx)
      = (Rect.unit (s := S1024x3072) ![0, 2048] S1024x1024.size inb_S1024x3072_S1024x1024_0_2048).emb (ix2 f g) :=
    funext fun a => Fin.ext (by
      match a with
      | ⟨0, _⟩ => show f.val = 0 + 1 * f.val; omega
      | ⟨1, _⟩ => show 2048 + g.val = 2048 + 1 * g.val; omega)
  rw [e]
  exact View.canon_cons_emb _ _ _ _

/-- A column k below 2048 of the table is column k of the scaled copy of A. -/
theorem table_left (A : Vec F S1024x2048 .f32) (B : Vec F S2048x1024 .f32) (f : Fin 1024) (k : Fin 2048) :
    table A B (ix2 f (⟨k.val, by omega⟩ : Fin 3072)) = k0_pay2 A (ix2 f k) := by
  unfold table
  have e : (ix2 f (⟨k.val, by omega⟩ : Fin 3072) : S1024x3072.Idx)
      = (Rect.unit (s := S1024x3072) ![0, 0] S1024x2048.size inb_S1024x3072_S1024x2048_0_0).emb (ix2 f k) :=
    funext fun a => Fin.ext (by
      match a with
      | ⟨0, _⟩ => show f.val = 0 + 1 * f.val; omega
      | ⟨1, _⟩ => show k.val = 0 + 1 * k.val; omega)
  have h := Cert.Lib.TwoStores.canon_pair_earlier (Val := Elt F) (S := S1024x3072) (e := .bf16)
    (Rect.unit (s := S1024x3072) ![0, 2048] S1024x1024.size inb_S1024x3072_S1024x1024_0_2048)
    (Rect.unit (s := S1024x3072) ![0, 0] S1024x2048.size inb_S1024x3072_S1024x2048_0_0)
    (k0_pay3 A B) (k0_pay2 A) (ix2 f k) (1 : Fin 2) (by show 0 + 1 * k.val < 2048; omega)
  rw [← e] at h
  exact h

end Cert.KernelIdeal.TableAt

end
-- ==== Proof.Entries.lean ====
/-
  The body's arithmetic read at one index, over the extended reals.

  Each payload of the body is opened once, at explicit coordinates: the scaled copy of A (entry times the reciprocal
  square root of its column's sum of squares — the lane reduction from the zero word is the plain sum), the product
  block (a matrix product into a zero accumulator is the plain sum over the contracted axis), a point's product of
  its rows of x with the table, and the two column ranges of that product the body stores. Changes of float format
  are the identity here.
-/
import proofs.«116443_g85555748536941_cont_sun_m_818_32_alg».proof.Proof.Gen.KernelIdeal.Skeleton
import proofs.«116443_g85555748536941_cont_sun_m_818_32_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Entries

open Cert.KernelIdeal Cert.KernelIdeal.Gen

/-- The column sums of squares: a lane reduction over axis 0 from the zero word is the plain sum over the rows. -/
theorem colsum_apply (Q : FVec Ideal S1024x2048 .f32) (hφ : FKind.Formats .f32)
    (hacc : (0x00000000#32 : BitVec 32) = FKind.add.neutral .f32 hφ) (k : Fin 2048) :
    multiReduction .add [0] S2048 Q 0x00000000#32 reduces_S1024x2048_S2048 hφ hacc (ix1 k) = ∑ f : Fin 1024, Q (ix2 f k) := by
  refine (Ideal.multiReduction_add_single Q 0x00000000#32 reduces_S1024x2048_S2048 hφ hacc (ix1 k)).trans ?_
  refine Finset.sum_congr rfl fun f _ => congrArg Q (funext fun a => Fin.ext ?_)
  match a with
  | ⟨0, _⟩ => rfl
  | ⟨1, _⟩ => rfl

/-- The scaled copy of A at (f, k): A(f,k) times the reciprocal square root of column k's sum of squares. -/
theorem pay1_apply (A : FVec Ideal S1024x2048 .f32) (f : Fin 1024) (k : Fin 2048) :
    k0_pay1 (F := Ideal) A (ix2 f k) = Cert.Spec.unitK A f k := by
  unfold k0_pay1 Cert.Spec.unitK Cert.Spec.colSq
  dsimp only
  show A (ix2 f k) * (broadcastTo S1024x2048 _ broadcasts_S1x2048_S1024x2048 (ix2 f k) : EReal) = _
  refine congrArg (A (ix2 f k) * ·) ?_
  refine (broadcastTo_1b_ab_apply _ broadcasts_S1x2048_S1024x2048 f k).trans ?_
  show Ideal.rsqrt (shapeCast S1x2048 _ shapeCasts_S2048_S1x2048 (ix2 (0 : Fin 1) k)) = _
  refine congrArg Ideal.rsqrt ?_
  refine (shapeCast_a_1a_apply _ shapeCasts_S2048_S1x2048 (0 : Fin 1) k).trans ?_
  exact colsum_apply (mulf A A) _ _ k

/-- The product stored in the table: a [1024, 2048] by [2048, 1024] matrix product into a zero accumulator is, at (p, q), the sum over the 2048 contracted positions. -/
theorem mm_table (L : FVec Ideal S1024x2048 .bf16) (R : FVec Ideal S2048x1024 .bf16) (p : Fin 1024) (q : Fin 1024) :
    matmul dot_S1024x2048_S2048x1024_S1024x1024_1_0_0_1_n_n none L R (constant S1024x1024 .f32 0x00000000#32) (ix2 p q) = ∑ k : Fin 2048, L (ix2 p k) * R (ix2 k q) := by
  refine (Ideal.matmul_constant_zero_apply dot_S1024x2048_S2048x1024_S1024x1024_1_0_0_1_n_n none L R (ix2 p q)).trans ?_
  rw [← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ =>
      show (dot_S1024x2048_S2048x1024_S1024x1024_1_0_0_1_n_n.lhsIdx (ix2 p q) _ 0).val = p.val
      unfold DotDims.lhsIdx
      rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
      rfl
    | ⟨1, _⟩ => exact (dot_S1024x2048_S2048x1024_S1024x1024_1_0_0_1_n_n.lhsIdx_val_of_single rfl (ix2 p q) _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (dot_S1024x2048_S2048x1024_S1024x1024_1_0_0_1_n_n.rhsIdx_val_of_single rfl (ix2 p q) _).trans hk
    | ⟨1, _⟩ =>
      show (dot_S1024x2048_S2048x1024_S1024x1024_1_0_0_1_n_n.rhsIdx (ix2 p q) _ 1).val = q.val
      unfold DotDims.rhsIdx
      rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
      rfl)
  rw [el, er]

/-- The product of a point: 512 rows of x by the [1024, 3072] table into a zero accumulator is, at (p, q), the sum over the 1024 contracted positions. -/
theorem mm_point (L : FVec Ideal S512x1024 .bf16) (R : FVec Ideal S1024x3072 .bf16) (p : Fin 512) (q : Fin 3072) :
    matmul dot_S512x1024_S1024x3072_S512x3072_1_0_0_1_n_n none L R (constant S512x3072 .f32 0x00000000#32) (ix2 p q) = ∑ k : Fin 1024, L (ix2 p k) * R (ix2 k q) := by
  refine (Ideal.matmul_constant_zero_apply dot_S512x1024_S1024x3072_S512x3072_1_0_0_1_n_n none L R (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ =>
      show (dot_S512x1024_S1024x3072_S512x3072_1_0_0_1_n_n.lhsIdx (ix2 p q) _ 0).val = p.val
      unfold DotDims.lhsIdx
      rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
      rfl
    | ⟨1, _⟩ => exact (dot_S512x1024_S1024x3072_S512x3072_1_0_0_1_n_n.lhsIdx_val_of_single rfl (ix2 p q) _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (dot_S512x1024_S1024x3072_S512x3072_1_0_0_1_n_n.rhsIdx_val_of_single rfl (ix2 p q) _).trans hk
    | ⟨1, _⟩ =>
      show (dot_S512x1024_S1024x3072_S512x3072_1_0_0_1_n_n.rhsIdx (ix2 p q) _ 1).val = q.val
      unfold DotDims.rhsIdx
      rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
      rfl)
  rw [el, er]

/-- The product block of the table at (f, g): the scaled matrix times B. -/
theorem pay3_apply (A : FVec Ideal S1024x2048 .f32) (B : FVec Ideal S2048x1024 .f32) (f : Fin 1024) (g : Fin 1024) :
    k0_pay3 (F := Ideal) A B (ix2 f g) = Cert.Spec.prodK A B f g := by
  unfold k0_pay3 Cert.Spec.prodK
  refine (congrFun (shapeCast_self _ shapeCasts_S1024x1024_S1024x1024) (ix2 f g)).trans ?_
  refine (mm_table (k0_pay1 A) (truncf .bf16 B bitsLt_bf16_f32) f g).trans ?_
  refine Finset.sum_congr rfl fun k _ => ?_
  rw [pay1_apply]
  rfl

/-- The scaled block of the table at (f, k). -/
theorem pay2_apply (A : FVec Ideal S1024x2048 .f32) (f : Fin 1024) (k : Fin 2048) :
    k0_pay2 (F := Ideal) A (ix2 f k) = Cert.Spec.unitK A f k := by
  unfold k0_pay2
  refine (congrFun (shapeCast_self _ shapeCasts_S1024x2048_S1024x2048) (ix2 f k)).trans ?_
  exact pay1_apply A f k

/-- A point's product at (r, j): the sum over the 1024 columns of x of x(r, ·) times the table's column j. -/
theorem pay4_apply (xb : FVec Ideal S512x1024 .f32) (T : FVec Ideal S1024x3072 .bf16) (r : Fin 512) (j : Fin 3072) :
    k0_pay4 (F := Ideal) xb T (ix2 r j) = ∑ f : Fin 1024, xb (ix2 r f) * T (ix2 f j) := by
  unfold k0_pay4
  exact mm_point (truncf .bf16 xb bitsLt_bf16_f32) T r j

/-- The block stored for the second result at (r, k): column k of the point's product. -/
theorem pay5_apply (xb : FVec Ideal S512x1024 .f32) (T : FVec Ideal S1024x3072 .bf16) (r : Fin 512) (k : Fin 2048) :
    k0_pay5 (F := Ideal) xb T (ix2 r k) = ∑ f : Fin 1024, xb (ix2 r f) * T (ix2 f (⟨k.val, by omega⟩ : Fin 3072)) := by
  unfold k0_pay5
  refine (slice2_axis1_apply 0 _ slices_S512x3072_o0_0_S512x2048 r k (⟨k.val, by omega⟩ : Fin 3072) (by simp)).trans ?_
  exact pay4_apply xb T r _

/-- The block stored for the first result at (r, g): column 2048 + g of the point's product. -/
theorem pay6_apply (xb : FVec Ideal S512x1024 .f32) (T : FVec Ideal S1024x3072 .bf16) (r : Fin 512) (g : Fin 1024) :
    k0_pay6 (F := Ideal) xb T (ix2 r g) = ∑ f : Fin 1024, xb (ix2 r f) * T (ix2 f (⟨2048 + g.val, by omega⟩ : Fin 3072)) := by
  unfold k0_pay6
  refine (slice2_axis1_apply 2048 _ slices_S512x3072_o0_2048_S512x1024 r g (⟨2048 + g.val, by omega⟩ : Fin 3072) rfl).trans ?_
  exact pay4_apply xb T r _

end Cert.KernelIdeal.Entries
end
-- ==== Proof.Arrays.lean ====
/-
  The kernel's two result arrays after the run, each as one function of the three argument arrays, over the extended
  reals.

  At point t the window of x holds rows 512·t .. 512·t + 511 and the two result windows hold the same rows of their
  arrays. The block stored for the first result at (r, g) is Σ_f x(512·t + r, f) · table(f, 2048 + g), and
  table(f, 2048 + g) is the product block (U·B)(f, g); the block stored for the second result at (r, k) is
  Σ_f x(512·t + r, f) · table(f, k) with table(f, k) = U(f, k), the scaled copy of A. So every block written back is
  the restriction of one whole-array function — x·(U·B) and x·U — and the sixteen blocks cover all 8192 rows.
-/
import proofs.«116443_g85555748536941_cont_sun_m_818_32_alg».proof.Proof.Gen.KernelIdeal.Value
import proofs.«116443_g85555748536941_cont_sun_m_818_32_alg».proof.Proof.Sweep
import proofs.«116443_g85555748536941_cont_sun_m_818_32_alg».proof.Proof.TableAt
import proofs.«116443_g85555748536941_cont_sun_m_818_32_alg».proof.Proof.Entries

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Found Cert.KernelIdeal.Sweep Cert.KernelIdeal.TableAt
open Cert.KernelIdeal.Entries

variable (m : (ℓ : Loc nD τ sig) → Buf (Elt Ideal) ℓ) (ρ : Dev nD → PrngReg)

/-- The first result as one function of the arguments: x·(U·B) at (b, g). -/
def outArr (X : S8192x1024.Idx → EReal) (A : S1024x2048.Idx → EReal) (B : S2048x1024.Idx → EReal) : S8192x1024.Idx → EReal :=
  fun i => Cert.Spec.outK X A B (i 0) (i 1)

/-- The second result as one function of the arguments: x·U at (b, k). -/
def innerArr (X : S8192x1024.Idx → EReal) (A : S1024x2048.Idx → EReal) : S8192x2048.Idx → EReal :=
  fun i => Cert.Spec.innerK X A (i 0) (i 1)

/-- The block indices of the three moving windows at point t: row block t, column block 0 (decided over the grid). -/
theorem idx_rows : ∀ t : Fin cfg0.N, win0_0.index t (0 : Fin 2) = t.val ∧ win0_0.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back to the first result is block t of one function of the three argument arrays. -/
theorem flushed3_eq (c : Dev nD) (t : Fin cfg0.N) :
    (dats m 0 c).flushed 3 t = ((cfg0.win 3).blk t).view.read (Elt Ideal) (outArr (V m c main_arg0) (V m c main_arg1) (V m c main_arg2)) := by
  rw [Cert.KernelIdeal.Value.flushed3, out_at]
  obtain ⟨e00, e01, e30, e31, e40, e41⟩ := idx_rows t
  funext j
  obtain ⟨r, q, rfl⟩ : ∃ (r : Fin 512) (q : Fin 1024), j = ix2 r q := ⟨j 0, j 1, eq_ix2 j⟩
  show k0_pay6 (iblk m c 0 t) (theTable m c) (ix2 r q) = Cert.Spec.outK (V m c main_arg0) (V m c main_arg1) (V m c main_arg2) ((((cfg0.win 3).blk t).view.emb (ix2 r q)) 0) ((((cfg0.win 3).blk t).view.emb (ix2 r q)) 1)
  refine (pay6_apply (iblk m c 0 t) (theTable m c) r q).trans ?_
  unfold Cert.Spec.outK
  refine Finset.sum_congr rfl fun f _ => ?_
  have hx : iblk m c 0 t (ix2 r f) = V m c main_arg0 (ix2 ((((cfg0.win 3).blk t).view.emb (ix2 r q)) 0) f) := by
    show V m c main_arg0 (((cfg0.win 0).blk t).view.emb (ix2 r f)) = _
    refine congrArg _ (funext fun a => Fin.ext ?_)
    match a with
    | ⟨0, _⟩ => show win0_0.index t (0 : Fin 2) * 512 + 1 * r.val = win0_3.index t (0 : Fin 2) * 512 + 1 * r.val; omega
    | ⟨1, _⟩ => show win0_0.index t (1 : Fin 2) * 1024 + 1 * f.val = f.val; omega
  have hq : ((((cfg0.win 3).blk t).view.emb (ix2 r q)) 1 : Fin 1024) = q := Fin.ext (by
    show win0_3.index t (1 : Fin 2) * 1024 + 1 * q.val = q.val; omega)
  refine congrArg₂ (· * ·) hx ?_
  refine ((table_right (F := Ideal) (V m c main_arg1) (V m c main_arg2) f q).trans
    (pay3_apply (V m c main_arg1) (V m c main_arg2) f q)).trans ?_
  exact congrArg (Cert.Spec.prodK (V m c main_arg1) (V m c main_arg2) f) hq.symm

/-- An index of the first result lies in point t's block iff each coordinate lies in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

/-- The sixteen blocks of 512 rows cover the first result: row b lies in the block of point b / 512. So after the run
    the array is that one function of the arguments. -/
theorem final3 (c : Dev nD) : (dats m 0 c).arrAt 3 cfg0.N = outArr (V m c main_arg0) (V m c main_arg1) (V m c main_arg2) :=
  (dats m 0 c).arrAt_eq_of_cover 3 _ (fun t _ => flushed3_eq m c t) fun i => by
    have hN : cfg0.N = 16 := N_0
    have hi0 : (i 0).val < 8192 := (i 0).isLt
    have hi1 : (i 1).val < 1024 := (i 1).isLt
    have ht : (i 0).val / 512 < cfg0.N := by omega
    obtain ⟨e00, e01, e30, e31, e40, e41⟩ := idx_rows ⟨(i 0).val / 512, ht⟩
    refine ⟨⟨(i 0).val / 512, ht⟩, flush0_3 _, ?_⟩
    rw [mem_blk3]
    intro a
    match a with
    | ⟨0, _⟩ =>
      show win0_3.index ⟨(i 0).val / 512, ht⟩ (0 : Fin 2) * 512 ≤ (i 0).val ∧ (i 0).val < win0_3.index ⟨(i 0).val / 512, ht⟩ (0 : Fin 2) * 512 + 512
      have hv : (⟨(i 0).val / 512, ht⟩ : Fin cfg0.N).val = (i 0).val / 512 := rfl
      omega
    | ⟨1, _⟩ =>
      show win0_3.index ⟨(i 0).val / 512, ht⟩ (1 : Fin 2) * 1024 ≤ (i 1).val ∧ (i 1).val < win0_3.index ⟨(i 0).val / 512, ht⟩ (1 : Fin 2) * 1024 + 1024
      omega

/-- What point t writes back to the second result is block t of one function of the three argument arrays. -/
theorem flushed4_eq (c : Dev nD) (t : Fin cfg0.N) :
    (dats m 0 c).flushed 4 t = ((cfg0.win 4).blk t).view.read (Elt Ideal) (innerArr (V m c main_arg0) (V m c main_arg1)) := by
  rw [Cert.KernelIdeal.Value.flushed4, inner_at]
  obtain ⟨e00, e01, e30, e31, e40, e41⟩ := idx_rows t
  funext j
  obtain ⟨r, q, rfl⟩ : ∃ (r : Fin 512) (q : Fin 2048), j = ix2 r q := ⟨j 0, j 1, eq_ix2 j⟩
  show k0_pay5 (iblk m c 0 t) (theTable m c) (ix2 r q) = Cert.Spec.innerK (V m c main_arg0) (V m c main_arg1) ((((cfg0.win 4).blk t).view.emb (ix2 r q)) 0) ((((cfg0.win 4).blk t).view.emb (ix2 r q)) 1)
  refine (pay5_apply (iblk m c 0 t) (theTable m c) r q).trans ?_
  unfold Cert.Spec.innerK
  refine Finset.sum_congr rfl fun f _ => ?_
  have hx : iblk m c 0 t (ix2 r f) = V m c main_arg0 (ix2 ((((cfg0.win 4).blk t).view.emb (ix2 r q)) 0) f) := by
    show V m c main_arg0 (((cfg0.win 0).blk t).view.emb (ix2 r f)) = _
    refine congrArg _ (funext fun a => Fin.ext ?_)
    match a with
    | ⟨0, _⟩ => show win0_0.index t (0 : Fin 2) * 512 + 1 * r.val = win0_4.index t (0 : Fin 2) * 512 + 1 * r.val; omega
    | ⟨1, _⟩ => show win0_0.index t (1 : Fin 2) * 1024 + 1 * f.val = f.val; omega
  have hq : ((((cfg0.win 4).blk t).view.emb (ix2 r q)) 1 : Fin 2048) = q := Fin.ext (by
    show win0_4.index t (1 : Fin 2) * 2048 + 1 * q.val = q.val; omega)
  refine congrArg₂ (· * ·) hx ?_
  refine ((table_left (F := Ideal) (V m c main_arg1) (V m c main_arg2) f q).trans
    (pay2_apply (V m c main_arg1) f q)).trans ?_
  exact congrArg (Cert.Spec.unitK (V m c main_arg1) f) hq.symm

/-- An index of the second result lies in point t's block iff each coordinate lies in the block's range on its axis. -/
theorem mem_blk4 (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0_1).slice (win0_4.rect t)).set ↔ _
  rw [View.set_slice_whole, Rect.mem_set_unit]
  exact Iff.rfl

/-- The sixteen blocks of 512 rows cover the second result: row b lies in the block of point b / 512. So after the run
    the array is that one function of the arguments. -/
theorem final4 (c : Dev nD) : (dats m 0 c).arrAt 4 cfg0.N = innerArr (V m c main_arg0) (V m c main_arg1) :=
  (dats m 0 c).arrAt_eq_of_cover 4 _ (fun t _ => flushed4_eq m c t) fun i => by
    have hN : cfg0.N = 16 := N_0
    have hi0 : (i 0).val < 8192 := (i 0).isLt
    have hi1 : (i 1).val < 2048 := (i 1).isLt
    have ht : (i 0).val / 512 < cfg0.N := by omega
    obtain ⟨e00, e01, e30, e31, e40, e41⟩ := idx_rows ⟨(i 0).val / 512, ht⟩
    refine ⟨⟨(i 0).val / 512, ht⟩, flush0_4 _, ?_⟩
    rw [mem_blk4]
    intro a
    match a with
    | ⟨0, _⟩ =>
      show win0_4.index ⟨(i 0).val / 512, ht⟩ (0 : Fin 2) * 512 ≤ (i 0).val ∧ (i 0).val < win0_4.index ⟨(i 0).val / 512, ht⟩ (0 : Fin 2) * 512 + 512
      have hv : (⟨(i 0).val / 512, ht⟩ : Fin cfg0.N).val = (i 0).val / 512 := rfl
      omega
    | ⟨1, _⟩ =>
      show win0_4.index ⟨(i 0).val / 512, ht⟩ (1 : Fin 2) * 2048 ≤ (i 1).val ∧ (i 1).val < win0_4.index ⟨(i 0).val / 512, ht⟩ (1 : Fin 2) * 2048 + 2048
      omega

/-- The run, read: each result array at its function of the arguments as launched, the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1)) (m ((c : Thread nD τ).loc main_arg2))
      ∧ r.2.mem ((c : Thread nD τ).loc main_v0_1) = innerArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Arrays

end
-- ==== Proof.RefArrays.lean ====
/-
  The reference's two results, each as one function of the three argument arrays, over the extended reals.

  The reference divides every entry of A by the square root of its column's sum of squares (the sum started from the
  zero word), multiplies x by that matrix — the second result — and multiplies the product by B — the first result.
  Read one operation at a time at explicit coordinates: (x·U)(b, k) = Σ_f x(b, f)·U(f, k) and
  ((x·U)·B)(b, g) = Σ_k (x·U)(b, k)·B(k, g).
-/
import proofs.«116443_g85555748536941_cont_sun_m_818_32_alg».proof.Proof.Gen.ReferenceIdeal.Read
import proofs.«116443_g85555748536941_cont_sun_m_818_32_alg».proof.Proof.Spec

noncomputable section

open Idealize.ShloMosaic Idealize.ShloMosaic.TcCoe Idealize.SL.Sem Idealize.ShloMosaic.ValueIdx

namespace Cert.ReferenceIdeal.RefArrays

open Cert.ReferenceIdeal Cert.ReferenceIdeal.Gen Cert.ReferenceIdeal.Read

/-- The first result as one function of the arguments: (x·U)·B at (b, g). -/
def outArr (X : S8192x1024.Idx → EReal) (A : S1024x2048.Idx → EReal) (B : S2048x1024.Idx → EReal) : S8192x1024.Idx → EReal :=
  fun i => Cert.Spec.outR X A B (i 0) (i 1)

/-- The second result as one function of the arguments: x·U at (b, k). -/
def innerArr (X : S8192x1024.Idx → EReal) (A : S1024x2048.Idx → EReal) : S8192x2048.Idx → EReal :=
  fun i => Cert.Spec.innerR X A (i 0) (i 1)

/-- The divided matrix at (f, k). -/
theorem unit_apply (A : (⟨S1024x2048, .f32⟩ : BufTy).Contents (Elt Ideal)) (f : Fin 1024) (k : Fin 2048) :
    val_main_v2 (F := Ideal) A (ix2 f k) = Cert.Spec.unitR A f k := by
  have ei : ∀ f' : Fin 1024, idx_main_call0_v1 (idx_main_call0_v2 (idx_main_v1 (ix2 f k))) f' = ix2 f' k :=
    fun f' => funext fun a => Fin.ext (by match a with | ⟨0, _⟩ => rfl | ⟨1, _⟩ => rfl)
  rw [val_main_v2_apply, val_main_v1_apply, val_main_v0_apply, val_main_call0_v2_apply, val_main_call0_v1_apply]
  simp only [ei]
  rfl

/-- The second result at (b, k). -/
theorem inner_apply (X : (⟨S8192x1024, .f32⟩ : BufTy).Contents (Elt Ideal)) (A : (⟨S1024x2048, .f32⟩ : BufTy).Contents (Elt Ideal))
    (b : Fin 8192) (k : Fin 2048) : val_main_v3 (F := Ideal) X A (ix2 b k) = Cert.Spec.innerR X A b k := by
  have el : ∀ f : Fin 1024, lidx_main_v3 (ix2 b k) f = ix2 b f :=
    fun f => funext fun a => Fin.ext (by match a with | ⟨0, _⟩ => rfl | ⟨1, _⟩ => rfl)
  have er : ∀ f : Fin 1024, ridx_main_v3 (ix2 b k) f = ix2 f k :=
    fun f => funext fun a => Fin.ext (by match a with | ⟨0, _⟩ => rfl | ⟨1, _⟩ => rfl)
  rw [val_main_v3_apply]
  unfold Cert.Spec.innerR
  refine Finset.sum_congr rfl fun f _ => ?_
  rw [el, er, unit_apply]

/-- The first result at (b, g). -/
theorem out_apply (X : (⟨S8192x1024, .f32⟩ : BufTy).Contents (Elt Ideal)) (A : (⟨S1024x2048, .f32⟩ : BufTy).Contents (Elt Ideal))
    (B : (⟨S2048x1024, .f32⟩ : BufTy).Contents (Elt Ideal)) (b : Fin 8192) (g : Fin 1024) :
    val_main_v4 (F := Ideal) X A B (ix2 b g) = Cert.Spec.outR X A B b g := by
  have el : ∀ k : Fin 2048, lidx_main_v4 (ix2 b g) k = ix2 b k :=
    fun k => funext fun a => Fin.ext (by match a with | ⟨0, _⟩ => rfl | ⟨1, _⟩ => rfl)
  have er : ∀ k : Fin 2048, ridx_main_v4 (ix2 b g) k = ix2 k g :=
    fun k => funext fun a => Fin.ext (by match a with | ⟨0, _⟩ => rfl | ⟨1, _⟩ => rfl)
  rw [val_main_v4_apply]
  unfold Cert.Spec.outR
  refine Finset.sum_congr rfl fun k _ => ?_
  rw [el, er, inner_apply]

/-- The reference's second result is that function of the arguments. -/
theorem inner_eq (X : (⟨S8192x1024, .f32⟩ : BufTy).Contents (Elt Ideal)) (A : (⟨S1024x2048, .f32⟩ : BufTy).Contents (Elt Ideal)) :
    val_main_v3 (F := Ideal) X A = innerArr X A := by
  funext i
  obtain ⟨b, k, rfl⟩ : ∃ (b : Fin 8192) (k : Fin 2048), i = ix2 b k := ⟨i 0, i 1, eq_ix2 i⟩
  exact inner_apply X A b k

/-- The reference's first result is that function of the arguments. -/
theorem out_eq (X : (⟨S8192x1024, .f32⟩ : BufTy).Contents (Elt Ideal)) (A : (⟨S1024x2048, .f32⟩ : BufTy).Contents (Elt Ideal))
    (B : (⟨S2048x1024, .f32⟩ : BufTy).Contents (Elt Ideal)) : val_main_v4 (F := Ideal) X A B = outArr X A B := by
  funext i
  obtain ⟨b, g, rfl⟩ : ∃ (b : Fin 8192) (g : Fin 1024), i = ix2 b g := ⟨i 0, i 1, eq_ix2 i⟩
  exact out_apply X A B b g

end Cert.ReferenceIdeal.RefArrays

end
-- ==== Proof.lean ====
/-
  The proof of `Cert.Claim`.

  The kernel computes U = A with every column scaled by the reciprocal square root of its sum of squares, then
  x·U (second result) and x·(U·B) (first result), the product U·B formed once and kept in scratch. The reference
  divides every entry of A by the square root of its column's sum of squares and computes x·U and (x·U)·B.

  The two scalings agree where a column's sum of squares is a positive real number, and the two products agree
  because all entries are then real numbers, where matrix multiplication is associative. The precondition supplies
  both: every input entry is finite and every column of A has a positive sum of squares (at a zero column the
  reference divides zero by zero).

  Frames: the two kernel programs' frames are the generated frame theorems; the reference has no kernel, and its
  frame is its run with the results dropped. The idealization changed no operation, so `preserves` is trivial.
  The algebraic claim sets the kernel's run, read as two whole-array functions, beside the reference's run, read
  likewise, and joins them by the two laws above.
-/
import proofs.«116443_g85555748536941_cont_sun_m_818_32_alg».proof.Defs
import proofs.«116443_g85555748536941_cont_sun_m_818_32_alg».proof.Proof.Gen.Kernel
import proofs.«116443_g85555748536941_cont_sun_m_818_32_alg».proof.Proof.Gen.Kernel.Skeleton
import proofs.«116443_g85555748536941_cont_sun_m_818_32_alg».proof.Proof.Gen.Kernel.Launch
import proofs.«116443_g85555748536941_cont_sun_m_818_32_alg».proof.Proof.Gen.Kernel.Points
import proofs.«116443_g85555748536941_cont_sun_m_818_32_alg».proof.Proof.Gen.Kernel.Frame
import proofs.«116443_g85555748536941_cont_sun_m_818_32_alg».proof.Proof.Gen.KernelIdeal
import proofs.«116443_g85555748536941_cont_sun_m_818_32_alg».proof.Proof.Gen.KernelIdeal.Skeleton
import proofs.«116443_g85555748536941_cont_sun_m_818_32_alg».proof.Proof.Gen.KernelIdeal.Launch
import proofs.«116443_g85555748536941_cont_sun_m_818_32_alg».proof.Proof.Gen.KernelIdeal.Points
import proofs.«116443_g85555748536941_cont_sun_m_818_32_alg».proof.Proof.Gen.KernelIdeal.Frame
import proofs.«116443_g85555748536941_cont_sun_m_818_32_alg».proof.Proof.Gen.ReferenceIdeal
import proofs.«116443_g85555748536941_cont_sun_m_818_32_alg».proof.Proof.Gen.Pre_finite_inputs
import proofs.«116443_g85555748536941_cont_sun_m_818_32_alg».proof.Proof.Gen.KernelIdeal.Value
import proofs.«116443_g85555748536941_cont_sun_m_818_32_alg».proof.Proof.Gen.ReferenceIdeal.Run
import proofs.«116443_g85555748536941_cont_sun_m_818_32_alg».proof.Proof.Gen.ReferenceIdeal.Read
import proofs.«116443_g85555748536941_cont_sun_m_818_32_alg».proof.Proof.Spec
import proofs.«116443_g85555748536941_cont_sun_m_818_32_alg».proof.Proof.Domain
import proofs.«116443_g85555748536941_cont_sun_m_818_32_alg».proof.Proof.Arrays
import proofs.«116443_g85555748536941_cont_sun_m_818_32_alg».proof.Proof.RefArrays
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with x·(U·B) = (x·U)·B in the first result and x·U in the second. -/
theorem algebraic : Cert.algebraic_KernelIdeal_ReferenceIdeal := by
  intro m ρ m' ρ' hpre hagree
  refine ⟨fun c => Cert.KernelIdeal.Arrays.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Arrays.innerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ?_) (Cert.ReferenceIdeal.Value.run (F := Ideal) m' ρ')
  obtain ⟨hx, hA, hB, hpos⟩ := Cert.Domain.decode _ _ _ (hpre c)
  refine ⟨(h c).1.trans ?_, (h c).2.1.trans ?_, (h c).2.2⟩
  · rw [Cert.ReferenceIdeal.Read.val_main_v4_eq, Cert.ReferenceIdeal.RefArrays.out_eq, (hagree c).1, (hagree c).2.1, (hagree c).2.2]
    funext i
    exact (Cert.Spec.out_eq _ _ _ hx hA hB hpos (i 0) (i 1)).symm
  · rw [Cert.ReferenceIdeal.Read.val_main_v3_eq, Cert.ReferenceIdeal.RefArrays.inner_eq, (hagree c).1, (hagree c).2.1]
    funext i
    exact (Cert.Spec.inner_eq _ _ hA hpos (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
